-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S16x256x256 : Shape := ⟨3, ![16, 256, 256]⟩
abbrev S16x1x256 : Shape := ⟨3, ![16, 1, 256]⟩
abbrev S16x257x256 : Shape := ⟨3, ![16, 257, 256]⟩
abbrev S16x258x256 : Shape := ⟨3, ![16, 258, 256]⟩
abbrev S16x258x1 : Shape := ⟨3, ![16, 258, 1]⟩
abbrev S16x258x257 : Shape := ⟨3, ![16, 258, 257]⟩
abbrev S16x258x258 : Shape := ⟨3, ![16, 258, 258]⟩

abbrev nBuf : Space → Nat
  | .hbm => 4
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x256x256, .f32⟩
  | .hbm, ⟨3, _⟩ => ⟨S8x64x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x256x256_S512x256x256 : S8x64x256x256.ShapeCasts S512x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  concatenates_S16x1x256_S16x256x256_S16x257x256_d1 : Shape.Concatenates [S16x1x256, S16x256x256] S16x257x256 1
  concatenates_S16x257x256_S16x1x256_S16x258x256_d1 : Shape.Concatenates [S16x257x256, S16x1x256] S16x258x256 1
  concatenates_S16x258x1_S16x258x256_S16x258x257_d2 : Shape.Concatenates [S16x258x1, S16x258x256] S16x258x257 2
  concatenates_S16x258x257_S16x258x1_S16x258x258_d2 : Shape.Concatenates [S16x258x257, S16x258x1] S16x258x258 2
  slices_S16x258x258_o0_2_1_S16x256x256 : S16x258x258.Slices ![0, 2, 1] S16x256x256
  slices_S16x258x258_o0_0_1_S16x256x256 : S16x258x258.Slices ![0, 0, 1] S16x256x256
  slices_S16x258x258_o0_1_2_S16x256x256 : S16x258x258.Slices ![0, 1, 2] S16x256x256
  slices_S16x258x258_o0_1_0_S16x256x256 : S16x258x258.Slices ![0, 1, 0] S16x256x256
  shapeCasts_S512x256x256_S8x64x256x256 : S512x256x256.ShapeCasts S8x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S512x256x256.size a
  hwx0_1 : ∀ i : grid0.Coords, EltTy.bits .f32 = 32 ∨ (Rect.block (s := S512x256x256) S16x256x256.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x64x258x258 : Shape := ⟨4, ![8, 64, 258, 258]⟩

abbrev nBuf : Space → Nat
  | .hbm => 17
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S_, .i32⟩
  | .hbm, ⟨2, _⟩ => ⟨S_, .f32⟩
  | .hbm, ⟨3, _⟩ => ⟨S8x64x258x258, .f32⟩
  | .hbm, ⟨4, _⟩ => ⟨S8x64x256x256, .f32⟩
  | .hbm, ⟨5, _⟩ => ⟨S8x64x256x256, .f32⟩
  | .hbm, ⟨6, _⟩ => ⟨S8x64x256x256, .f32⟩
  | .hbm, ⟨7, _⟩ => ⟨S8x64x256x256, .f32⟩
  | .hbm, ⟨8, _⟩ => ⟨S8x64x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S_, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  slices_S8x64x258x258_S8x64x256x256_0_0_2_1 : S8x64x258x258.Slices ![0, 0, 2, 1] S8x64x256x256
  slices_S8x64x258x258_S8x64x256x256_0_0_0_1 : S8x64x258x258.Slices ![0, 0, 0, 1] S8x64x256x256
  slices_S8x64x258x258_S8x64x256x256_0_0_1_2 : S8x64x258x258.Slices ![0, 0, 1, 2] S8x64x256x256
  slices_S8x64x258x258_S8x64x256x256_0_0_1_0 : S8x64x258x258.Slices ![0, 0, 1, 0] S8x64x256x256
  bcast_S_S8x64x256x256 : S_.BroadcastsInDim S8x64x256x256 (![] : Fin 0 → Fin S8x64x256x256.rank)

variable [Facts₀]

class Facts : Prop extends Facts₀ where

variable [Facts]
-- ==== Proof.GradSpec.lean ====
/-
  The mathematics both programs compute, stated once over the extended reals.

  An image plane of 256 × 256 entries is surrounded by a border of zeros one entry wide (`bordered`); at each
  position (h, w) of the plane the vertical central difference  P(h+2, w+1) − P(h, w+1)  and the horizontal
  central difference  P(h+1, w+2) − P(h+1, w)  of the bordered plane P are squared and added, a fixed small
  constant is added, and the square root is taken (`gradMag`): the magnitude of the discrete gradient.
  A stack of planes is treated plane by plane (`stackGrad` for a rank-3 stack, `imageGrad` for the rank-4
  batch × channel arrangement), and since the rank-4 array [8, 64, 256, 256] and the rank-3 stack
  [512, 256, 256] list the same planes in the same order, reshaping, treating the stack, and reshaping back
  is the rank-4 function (`reshape_stackGrad`).
-/
import Idealize.ShloMosaic.PureOps.Ideal
import Idealize.ShloMosaic.Lib.ValueIdx
import Idealize.ShloMosaic.Lib.Pipeline.Value

noncomputable section

namespace Cert.GradMag

open Idealize.ShloMosaic Idealize.ShloMosaic.ValueIdx

/-- A 256 × 256 plane behind a border of zeros one entry wide: position (r, c) of the bordered 258 × 258 plane
    holds the plane's entry (r − 1, c − 1) when 1 ≤ r ≤ 256 and 1 ≤ c ≤ 256, and zero on the border. -/
def bordered (p : Fin 256 → Fin 256 → EReal) (r c : ℕ) : EReal :=
  if h : (1 ≤ r ∧ r ≤ 256) ∧ (1 ≤ c ∧ c ≤ 256) then p ⟨r - 1, by omega⟩ ⟨c - 1, by omega⟩ else 0

/-- The gradient magnitude at (h, w) of a bordered plane `P`: the square root of the squared vertical central
    difference plus the squared horizontal central difference plus the constant whose f32 word is 0x358637BD. -/
def gradMag (P : ℕ → ℕ → EReal) (h w : ℕ) : EReal :=
  Ideal.sqrt ((P (2 + h) (1 + w) - P h (1 + w)) * (P (2 + h) (1 + w) - P h (1 + w))
    + (P (1 + h) (2 + w) - P (1 + h) w) * (P (1 + h) (2 + w) - P (1 + h) w)
    + Ideal.ofBits .f32 0x358637BD#32)

/-- A stack of `n` planes, plane by plane: entry (k, h, w) is the gradient magnitude at (h, w) of plane k. -/
def stackGrad {n : ℕ} (x : (⟨3, ![n, 256, 256]⟩ : Shape).Idx → EReal) (k : Fin n) (h w : Fin 256) : EReal :=
  gradMag (bordered fun r c => x (ix3 k r c)) h.val w.val

/-- The same as a function of the stack's index. -/
def stackGradAt {n : ℕ} (x : (⟨3, ![n, 256, 256]⟩ : Shape).Idx → EReal) :
    (⟨3, ![n, 256, 256]⟩ : Shape).Idx → EReal := fun j => stackGrad x (j 0) (j 1) (j 2)

/-- The batch × channel arrangement, plane by plane: entry (b, ch, h, w) is the gradient magnitude at (h, w)
    of plane (b, ch). -/
def imageGrad (x : (⟨4, ![8, 64, 256, 256]⟩ : Shape).Idx → EReal) :
    (⟨4, ![8, 64, 256, 256]⟩ : Shape).Idx → EReal :=
  fun i => gradMag (bordered fun r c => x (ix4 (i 0) (i 1) r c)) (i 2).val (i 3).val

/-- Plane (b, ch) of the rank-4 array is plane 64 b + ch of the rank-3 stack, entry for entry: both sit at
    row-major position ((64 b + ch) · 256 + r) · 256 + c. -/
theorem reshape_plane (x : (⟨4, ![8, 64, 256, 256]⟩ : Shape).Idx → EReal)
    (h₁ : (⟨4, ![8, 64, 256, 256]⟩ : Shape).ShapeCasts ⟨3, ![512, 256, 256]⟩)
    (b : Fin 8) (ch : Fin 64) (k : Fin 512) (hk : k.val = 64 * b.val + ch.val) (r c : Fin 256) :
    shapeCast ⟨3, ![512, 256, 256]⟩ x h₁ (ix3 k r c) = x (ix4 b ch r c) :=
  shapeCast_apply x h₁ _ _ (by
    rw [Shape.rowMajor_val_four, Shape.rowMajor_val_three]
    show ((b.val * 64 + ch.val) * 256 + r.val) * 256 + c.val = (k.val * 256 + r.val) * 256 + c.val
    rw [hk]; ring)

/-- Reshape to the stack, treat the stack plane by plane, reshape back: the rank-4 function. -/
theorem reshape_stackGrad (x : (⟨4, ![8, 64, 256, 256]⟩ : Shape).Idx → EReal)
    (h₁ : (⟨4, ![8, 64, 256, 256]⟩ : Shape).ShapeCasts ⟨3, ![512, 256, 256]⟩)
    (h₂ : (⟨3, ![512, 256, 256]⟩ : Shape).ShapeCasts ⟨4, ![8, 64, 256, 256]⟩) :
    shapeCast ⟨4, ![8, 64, 256, 256]⟩ (stackGradAt (shapeCast ⟨3, ![512, 256, 256]⟩ x h₁)) h₂ = imageGrad x := by
  funext i
  obtain ⟨b, ch, h, w, rfl⟩ : ∃ (b : Fin 8) (ch : Fin 64) (h w : Fin 256), i = ix4 b ch h w :=
    ⟨i 0, i 1, i 2, i 3, eq_ix4 i⟩
  have hb : b.val < 8 := b.isLt
  have hch : ch.val < 64 := ch.isLt
  refine (shapeCast_apply _ h₂ _ (ix3 (⟨64 * b.val + ch.val, by omega⟩ : Fin 512) h w) (by
    rw [Shape.rowMajor_val_four, Shape.rowMajor_val_three]
    show ((64 * b.val + ch.val) * 256 + h.val) * 256 + w.val = ((b.val * 64 + ch.val) * 256 + h.val) * 256 + w.val
    ring)).trans ?_
  show gradMag (bordered fun r c => shapeCast ⟨3, ![512, 256, 256]⟩ x h₁ (ix3 (⟨64 * b.val + ch.val, _⟩ : Fin 512) r c)) h.val w.val
    = gradMag (bordered fun r c => x (ix4 b ch r c)) h.val w.val
  refine congrArg (fun p => gradMag (bordered p) h.val w.val) (funext fun r => funext fun c => ?_)
  exact reshape_plane x h₁ b ch _ rfl r c

end Cert.GradMag

end
-- ==== Proof.KernelBlock.lean ====
/-
  What the kernel body computes from one block of sixteen planes, entry by entry.

  The body surrounds each plane of its block with a border of zeros by four concatenations — a zero row in
  front of the rows, a zero row behind them, a zero column in front of the columns, a zero column behind —
  and then combines four shifted 256 × 256 windows of the 258 × 258 bordered planes pointwise. Read at an
  entry, each concatenation is a case distinction on the coordinate along its axis, so the four together
  are the bordered plane of the specification (`paddedBlock_apply`), each window reads the bordered plane
  at its offsets, and the body's value at plane n, position (h, w) is the gradient magnitude there of
  plane n of the block (`pay_apply`).
-/
import proofs.«167682_j46737834115117_1_alg».proof.Proof.Gen.KernelIdeal.Skeleton
import proofs.«167682_j46737834115117_1_alg».proof.Proof.GradSpec
import Idealize.ShloMosaic.Lib.Pipeline.Value
import Idealize.ShloMosaic.Lib.KernelVsHost

noncomputable section

namespace Cert.KernelIdeal.Block

open Idealize.ShloMosaic Idealize.ShloMosaic.ValueIdx Cert.KernelIdeal Cert.KernelIdeal.Gen Cert.GradMag

/-! ## The four concatenations, each read at an entry -/

section Border
variable {α : Type}

/-- A zero row in front of the 256 rows: row r of the 257 is the zero row when r = 0, else row r − 1. -/
theorem rows_front (z : α) (v : S16x256x256.Idx → α)
    (hc : Shape.Concatenates [S16x1x256, S16x256x256] S16x257x256 1) (n : Fin 16) (r : Fin 257) (c : Fin 256) :
    concatenate S16x257x256 1 [⟨S16x1x256, broadcast S16x1x256 z⟩, ⟨S16x256x256, v⟩] hc (ix3 n r c)
      = if h : 1 ≤ r.val then v (ix3 n (⟨r.val - 1, by omega⟩ : Fin 256) c) else z := by
  by_cases h : 1 ≤ r.val
  · rw [dif_pos h]
    exact concatenate_pair_apply_right 1 _ _ hc (ix3 n r c) rfl rfl (ix3 n (⟨r.val - 1, by omega⟩ : Fin 256) c)
      (fun b hb => match b, hb with
        | ⟨0, _⟩, _ => rfl
        | ⟨1, _⟩, hb => (hb rfl).elim
        | ⟨2, _⟩, _ => rfl)
      (by show (r.val - 1) + 1 = r.val; omega)
  · rw [dif_neg h]
    exact concatenate_pair_apply_left 1 _ _ hc (ix3 n r c) rfl (ix3 n (⟨0, by omega⟩ : Fin 1) c)
      (fun b => match b with
        | ⟨0, _⟩ => rfl
        | ⟨1, _⟩ => by show 0 = r.val; omega
        | ⟨2, _⟩ => rfl)

/-- A zero row behind the 257 rows: row r of the 258 is row r when r < 257, else the zero row. -/
theorem rows_back (z : α) (v : S16x257x256.Idx → α)
    (hc : Shape.Concatenates [S16x257x256, S16x1x256] S16x258x256 1) (n : Fin 16) (r : Fin 258) (c : Fin 256) :
    concatenate S16x258x256 1 [⟨S16x257x256, v⟩, ⟨S16x1x256, broadcast S16x1x256 z⟩] hc (ix3 n r c)
      = if h : r.val < 257 then v (ix3 n (⟨r.val, h⟩ : Fin 257) c) else z := by
  by_cases h : r.val < 257
  · rw [dif_pos h]
    exact concatenate_pair_apply_left 1 _ _ hc (ix3 n r c) rfl (ix3 n (⟨r.val, h⟩ : Fin 257) c)
      (fun b => match b with
        | ⟨0, _⟩ => rfl
        | ⟨1, _⟩ => rfl
        | ⟨2, _⟩ => rfl)
  · rw [dif_neg h]
    have hr : r.val < 258 := r.isLt
    exact concatenate_pair_apply_right 1 _ _ hc (ix3 n r c) rfl rfl (ix3 n (⟨0, by omega⟩ : Fin 1) c)
      (fun b hb => match b, hb with
        | ⟨0, _⟩, _ => rfl
        | ⟨1, _⟩, hb => (hb rfl).elim
        | ⟨2, _⟩, _ => rfl)
      (by show 0 + 257 = r.val; omega)

/-- A zero column in front of the 256 columns: column c of the 257 is the zero column when c = 0, else column c − 1. -/
theorem cols_front (z : α) (v : S16x258x256.Idx → α)
    (hc : Shape.Concatenates [S16x258x1, S16x258x256] S16x258x257 2) (n : Fin 16) (r : Fin 258) (c : Fin 257) :
    concatenate S16x258x257 2 [⟨S16x258x1, broadcast S16x258x1 z⟩, ⟨S16x258x256, v⟩] hc (ix3 n r c)
      = if h : 1 ≤ c.val then v (ix3 n r (⟨c.val - 1, by omega⟩ : Fin 256)) else z := by
  by_cases h : 1 ≤ c.val
  · rw [dif_pos h]
    exact concatenate_pair_apply_right 2 _ _ hc (ix3 n r c) rfl rfl (ix3 n r (⟨c.val - 1, by omega⟩ : Fin 256))
      (fun b hb => match b, hb with
        | ⟨0, _⟩, _ => rfl
        | ⟨1, _⟩, _ => rfl
        | ⟨2, _⟩, hb => (hb rfl).elim)
      (by show (c.val - 1) + 1 = c.val; omega)
  · rw [dif_neg h]
    exact concatenate_pair_apply_left 2 _ _ hc (ix3 n r c) rfl (ix3 n r (⟨0, by omega⟩ : Fin 1))
      (fun b => match b with
        | ⟨0, _⟩ => rfl
        | ⟨1, _⟩ => rfl
        | ⟨2, _⟩ => by show 0 = c.val; omega)

/-- A zero column behind the 257 columns: column c of the 258 is column c when c < 257, else the zero column. -/
theorem cols_back (z : α) (v : S16x258x257.Idx → α)
    (hc : Shape.Concatenates [S16x258x257, S16x258x1] S16x258x258 2) (n : Fin 16) (r : Fin 258) (c : Fin 258) :
    concatenate S16x258x258 2 [⟨S16x258x257, v⟩, ⟨S16x258x1, broadcast S16x258x1 z⟩] hc (ix3 n r c)
      = if h : c.val < 257 then v (ix3 n r (⟨c.val, h⟩ : Fin 257)) else z := by
  by_cases h : c.val < 257
  · rw [dif_pos h]
    exact concatenate_pair_apply_left 2 _ _ hc (ix3 n r c) rfl (ix3 n r (⟨c.val, h⟩ : Fin 257))
      (fun b => match b with
        | ⟨0, _⟩ => rfl
        | ⟨1, _⟩ => rfl
        | ⟨2, _⟩ => rfl)
  · rw [dif_neg h]
    have hcc : c.val < 258 := c.isLt
    exact concatenate_pair_apply_right 2 _ _ hc (ix3 n r c) rfl rfl (ix3 n r (⟨0, by omega⟩ : Fin 1))
      (fun b hb => match b, hb with
        | ⟨0, _⟩, _ => rfl
        | ⟨1, _⟩, _ => rfl
        | ⟨2, _⟩, hb => (hb rfl).elim)
      (by show 0 + 257 = c.val; omega)

/-- The block with the border value `z` all around each plane, as the body builds it: rows first, then columns. -/
def paddedBlock (z : α) (blk : S16x256x256.Idx → α) : S16x258x258.Idx → α :=
  concatenate S16x258x258 2
    [⟨S16x258x257, concatenate S16x258x257 2
        [⟨S16x258x1, broadcast S16x258x1 z⟩,
         ⟨S16x258x256, concatenate S16x258x256 1
            [⟨S16x257x256, concatenate S16x257x256 1 [⟨S16x1x256, broadcast S16x1x256 z⟩, ⟨S16x256x256, blk⟩]
                concatenates_S16x1x256_S16x256x256_S16x257x256_d1⟩,
             ⟨S16x1x256, broadcast S16x1x256 z⟩]
            concatenates_S16x257x256_S16x1x256_S16x258x256_d1⟩]
        concatenates_S16x258x1_S16x258x256_S16x258x257_d2⟩,
     ⟨S16x258x1, broadcast S16x258x1 z⟩]
    concatenates_S16x258x257_S16x258x1_S16x258x258_d2

/-- Entry (n, r, c) of the padded block: the block's entry (n, r − 1, c − 1) inside, the border value on the border. -/
theorem paddedBlock_read (z : α) (blk : S16x256x256.Idx → α) (n : Fin 16) (r c : Fin 258) :
    paddedBlock z blk (ix3 n r c)
      = if h : (1 ≤ r.val ∧ r.val ≤ 256) ∧ (1 ≤ c.val ∧ c.val ≤ 256) then
          blk (ix3 n (⟨r.val - 1, by omega⟩ : Fin 256) (⟨c.val - 1, by omega⟩ : Fin 256)) else z := by
  unfold paddedBlock
  rw [cols_back]
  by_cases hc2 : c.val < 257
  · rw [dif_pos hc2, cols_front]
    by_cases hc1 : 1 ≤ c.val
    · rw [dif_pos hc1, rows_back]
      by_cases hr2 : r.val < 257
      · rw [dif_pos hr2, rows_front]
        by_cases hr1 : 1 ≤ r.val
        · rw [dif_pos hr1, dif_pos (by omega)]
        · rw [dif_neg hr1, dif_neg (by omega)]
      · rw [dif_neg hr2, dif_neg (by omega)]
    · rw [dif_neg hc1, dif_neg (by omega)]
  · rw [dif_neg hc2, dif_neg (by omega)]

end Border

/-! ## The body's value -/

section Body
variable {F : FTy → Type} [FloatOps F]

/-- The body after the padding: four shifted windows of the padded block — rows h + 2 and h against columns w + 1,
    rows h + 1 against columns w + 2 and w — combined pointwise. -/
def combine (P : FVec F S16x258x258 .f32) : FVec F S16x256x256 .f32 :=
  sqrt (addf (addf
    (mulf (subf (extractStridedSlice S16x256x256 ![0, 2, 1] P slices_S16x258x258_o0_2_1_S16x256x256)
                (extractStridedSlice S16x256x256 ![0, 0, 1] P slices_S16x258x258_o0_0_1_S16x256x256))
          (subf (extractStridedSlice S16x256x256 ![0, 2, 1] P slices_S16x258x258_o0_2_1_S16x256x256)
                (extractStridedSlice S16x256x256 ![0, 0, 1] P slices_S16x258x258_o0_0_1_S16x256x256)))
    (mulf (subf (extractStridedSlice S16x256x256 ![0, 1, 2] P slices_S16x258x258_o0_1_2_S16x256x256)
                (extractStridedSlice S16x256x256 ![0, 1, 0] P slices_S16x258x258_o0_1_0_S16x256x256))
          (subf (extractStridedSlice S16x256x256 ![0, 1, 2] P slices_S16x258x258_o0_1_2_S16x256x256)
                (extractStridedSlice S16x256x256 ![0, 1, 0] P slices_S16x258x258_o0_1_0_S16x256x256))))
    (broadcast S16x256x256 (Scalar.ofBits .f32 0x358637BD#32)))

set_option maxRecDepth 65536 in
/-- The body's stored value is that combination of the padded block. -/
theorem pay_eq (blk : Vec F S16x256x256 .f32) :
    k0_pay1 blk = combine (paddedBlock (Scalar.sitofp .f32 0#32)
      (shapeCast S16x256x256 blk shapeCasts_S16x256x256_S16x256x256)) := rfl

end Body

/-- A window of the padded block at offsets (0, a, b), read at (n, h, w), is the bordered plane n at (a + h, b + w). -/
theorem window_read (blk : Vec Ideal S16x256x256 .f32) (a b : ℕ) (ha : a ≤ 2) (hb : b ≤ 2)
    (hs : S16x258x258.Slices ![0, a, b] S16x256x256) (n : Fin 16) (h w : Fin 256) :
    extractStridedSlice S16x256x256 ![0, a, b] (paddedBlock (Scalar.sitofp (F := Ideal) .f32 0#32) blk) hs (ix3 n h w)
      = bordered (fun r c => blk (ix3 n r c)) (a + h.val) (b + w.val) := by
  have hh : h.val < 256 := h.isLt
  have hw : w.val < 256 := w.isLt
  refine (extractStridedSlice_apply _ _ hs (ix3 n h w)
    (ix3 n (⟨a + h.val, by omega⟩ : Fin 258) (⟨b + w.val, by omega⟩ : Fin 258))
    (fun d => match d with
      | ⟨0, _⟩ => by show n.val = 0 + n.val; omega
      | ⟨1, _⟩ => rfl
      | ⟨2, _⟩ => rfl)).trans ?_
  rw [paddedBlock_read, sitofp_zero]
  rfl

/-- THE BODY AT AN ENTRY: plane n of the block, position (h, w): the gradient magnitude there. -/
theorem pay_apply (blk : Vec Ideal S16x256x256 .f32) (n : Fin 16) (h w : Fin 256) :
    k0_pay1 (F := Ideal) blk (ix3 n h w) = stackGrad blk n h w := by
  rw [pay_eq, shapeCast_self]
  have e21 := window_read blk 2 1 (by omega) (by omega) slices_S16x258x258_o0_2_1_S16x256x256 n h w
  have e01 := window_read blk 0 1 (by omega) (by omega) slices_S16x258x258_o0_0_1_S16x256x256 n h w
  have e12 := window_read blk 1 2 (by omega) (by omega) slices_S16x258x258_o0_1_2_S16x256x256 n h w
  have e10 := window_read blk 1 0 (by omega) (by omega) slices_S16x258x258_o0_1_0_S16x256x256 n h w
  rw [Nat.zero_add] at e01 e10
  unfold stackGrad gradMag
  rw [← e21, ← e01, ← e12, ← e10]
  rfl

end Cert.KernelIdeal.Block

end
-- ==== Proof.KernelValue.lean ====
/-
  The kernel program's result as one function of its argument.

  The program reshapes the rank-4 argument to a stack of 512 planes, runs the kernel over 32 grid points,
  and reshapes the stack it wrote back to rank 4. Grid point t stages planes 16 t … 16 t + 15 of the stack
  (`iblk_apply`), the body leaves in the output's staging buffer the gradient magnitude of each of those
  planes, and that is block t of the plane-by-plane function of the whole stack (`flushed_eq`). Every plane k
  lies in the block of exactly the point k / 16, so the 32 blocks cover the output array (`cover`) and the
  array ends holding the plane-by-plane function of the stack the region found (`final`). The host reshapes
  before and after the region are read off the program's operation lists (`entry_stack`, `tail_eq`), and
  the reshape law of the specification turns the composition into the rank-4 function (`run`).
-/
import proofs.«167682_j46737834115117_1_alg».proof.Proof.Gen.KernelIdeal.Frame
import proofs.«167682_j46737834115117_1_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Idealize.ShloMosaic.ValueIdx Cert.KernelIdeal Cert.KernelIdeal.Gen Cert.KernelIdeal.Block Cert.GradMag

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: at point t both windows sit at block (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The stack of planes as the region finds it. -/
abbrev stack (c : Dev nD) : S512x256x256.Idx → EReal := V m c main_v0

/-- The input window's block at point t is planes 16 t … 16 t + 15 of the stack. -/
theorem iblk_apply (c : Dev nD) (t : Fin cfg0.N) (y : S16x256x256.Idx) (k : S512x256x256.Idx)
    (hk0 : (k 0).val = 16 * t.val + (y 0).val) (hk1 : (k 1).val = (y 1).val) (hk2 : (k 2).val = (y 2).val) :
    (iblk m c 0 t : Vec Ideal S16x256x256 .f32) y = stack m c k := by
  obtain ⟨e0, e1, e2, -, -, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 16 + 1 * (y 0).val = (k 0).val; rw [e0, hk0]; omega
  | ⟨1, _⟩ => show win0_0.index t (1 : Fin 3) * 256 + 1 * (y 1).val = (k 1).val; rw [e1, hk1]; omega
  | ⟨2, _⟩ => show win0_0.index t (2 : Fin 3) * 256 + 1 * (y 2).val = (k 2).val; rw [e2, hk2]; omega

/-- One entry of the body's result on a block of sixteen planes taken from a stack `X` at planes 16 T + n:
    the plane-by-plane function of `X` at the entry's place in the stack. -/
theorem block_point (X : S512x256x256.Idx → EReal) (blk : Vec Ideal S16x256x256 .f32) (T : ℕ)
    (hblk : ∀ (y : S16x256x256.Idx) (k : S512x256x256.Idx), (k 0).val = 16 * T + (y 0).val →
      (k 1).val = (y 1).val → (k 2).val = (y 2).val → blk y = X k)
    (y : S16x256x256.Idx) (i : S512x256x256.Idx)
    (hi0 : (i 0).val = 16 * T + (y 0).val) (hi1 : (i 1).val = (y 1).val) (hi2 : (i 2).val = (y 2).val) :
    k0_pay1 (F := Ideal) blk y = stackGradAt X i := by
  obtain ⟨n, h, w, rfl⟩ : ∃ (n : Fin 16) (h w : Fin 256), y = ix3 n h w := ⟨y 0, y 1, y 2, eq_ix3 y⟩
  obtain ⟨k, h', w', rfl⟩ : ∃ (k : Fin 512) (h' w' : Fin 256), i = ix3 k h' w' := ⟨i 0, i 1, i 2, eq_ix3 i⟩
  have e1 : h' = h := Fin.ext hi1
  have e2 : w' = w := Fin.ext hi2
  subst e1 e2
  rw [pay_apply]
  show gradMag (bordered fun r c => blk (ix3 n r c)) h'.val w'.val = gradMag (bordered fun r c => X (ix3 k r c)) h'.val w'.val
  refine congrArg (fun p => gradMag (bordered p) h'.val w'.val) (funext fun r => funext fun c => ?_)
  exact hblk (ix3 n r c) (ix3 k r c) hi0 rfl rfl

/-- WHAT POINT t WRITES BACK is block t of the plane-by-plane function of the stack. -/
theorem flushed_eq (c : Dev nD) (t : Fin cfg0.N) :
    (dats m 0 c).flushed 1 t = ((cfg0.win 1).blk t).view.read (Elt Ideal) (stackGradAt (stack m c)) := by
  show (cfg0.win 1).cut (grid0.coords t) ((dats m 0 c).after 1 t) = _
  rw [after0_1]
  unfold out0_1
  rw [View.canon_unit_zero hz]
  simp only [View.ld_unit_zero (S := S16x256x256) hz]
  obtain ⟨-, -, -, e3, e4, e5⟩ := idx_facts t
  funext j
  show k0_pay1 (F := Ideal) (iblk m c 0 t) j = stackGradAt (stack m c) (((cfg0.win 1).blk t).view.emb j)
  refine block_point (stack m c) (iblk m c 0 t) t.val (fun y k h0 h1 h2 => iblk_apply m c t y k h0 h1 h2) j _ ?_ ?_ ?_
  · show win0_1.index t (0 : Fin 3) * 16 + 1 * (j 0).val = 16 * t.val + (j 0).val; rw [e3]; omega
  · show win0_1.index t (1 : Fin 3) * 256 + 1 * (j 1).val = (j 1).val; rw [e4]; omega
  · show win0_1.index t (2 : Fin 3) * 256 + 1 * (j 2).val = (j 2).val; rw [e5]; omega

/-- An index of the output array is in point t's block iff each coordinate is in the block's range on its axis. -/
theorem mem_blk (t : Fin cfg0.N) (i : S512x256x256.Idx) :
    i ∈ ((cfg0.win 1).blk t).view.set ↔ ∀ a : Fin 3, win0_1.index t a * S16x256x256.size a ≤ (i a).val
      ∧ (i a).val < win0_1.index t a * S16x256x256.size a + S16x256x256.size a := by
  show i ∈ ((View.whole main_v1).slice (win0_1.rect t)).set ↔ _
  rw [View.set_slice_whole, Rect.mem_set_unit]
  exact Iff.rfl

/-- Plane k of the output lies in the block of point k / 16: the blocks cover the array. -/
theorem cover (i : S512x256x256.Idx) :
    ∃ t : Fin cfg0.N, (cfg0.win 1).flush t = true ∧ i ∈ ((cfg0.win 1).blk t).view.set := by
  have hN : cfg0.N = 32 := N_0
  have hi0 : (i 0).val < 512 := (i 0).isLt
  have hi1 : (i 1).val < 256 := (i 1).isLt
  have hi2 : (i 2).val < 256 := (i 2).isLt
  let t : Fin cfg0.N := ⟨(i 0).val / 16, by rw [hN]; omega⟩
  obtain ⟨-, -, -, e3, e4, e5⟩ := idx_facts t
  have ht : t.val = (i 0).val / 16 := rfl
  refine ⟨t, flush0_1 t, ?_⟩
  rw [mem_blk]
  intro a
  match a with
  | ⟨0, _⟩ =>
    show win0_1.index t (0 : Fin 3) * 16 ≤ (i 0).val ∧ (i 0).val < win0_1.index t (0 : Fin 3) * 16 + 16
    rw [e3, ht]; omega
  | ⟨1, _⟩ =>
    show win0_1.index t (1 : Fin 3) * 256 ≤ (i 1).val ∧ (i 1).val < win0_1.index t (1 : Fin 3) * 256 + 256
    rw [e4]; omega
  | ⟨2, _⟩ =>
    show win0_1.index t (2 : Fin 3) * 256 ≤ (i 2).val ∧ (i 2).val < win0_1.index t (2 : Fin 3) * 256 + 256
    rw [e5]; omega

/-- THE OUTPUT ARRAY after the region: the plane-by-plane function of the stack the region found. -/
theorem final (c : Dev nD) : (dats m 0 c).arrAt 1 cfg0.N = stackGradAt (stack m c) :=
  (dats m 0 c).arrAt_eq_of_cover 1 (stackGradAt (stack m c)) (fun t _ => flushed_eq m c t) cover

/-- The stack the region finds is the argument reshaped. -/
theorem entry_stack (c : Dev nD) :
    stack m c = shapeCast S512x256x256 (m ((c.tc : Thread nD τ).loc main_arg0)) shapeCasts_S8x64x256x256_S512x256x256 := by
  show StableHlo.after hostOps0 (fun b => m (c, b)) (Proc.devRef .tc main_v0) = _
  after_results
  rfl

/-- The program's result: the output array reshaped back. -/
theorem tail_eq (c : Dev nD) :
    Pipeline.afterTail₀ cfgs (dats m) 0 (V0 m) [hostOps1] c main_v2
      = shapeCast S8x64x256x256 ((dats m 0 c).arrAt 1 cfg0.N) shapeCasts_S512x256x256_S8x64x256x256 := by
  unfold Pipeline.afterTail₀
  show StableHlo.after hostOps1 _ (Proc.devRef .tc main_v2) = _
  after_results
  rw [Pipeline.withArrays_arr spec0 launch0.win.arr_inj c _ _ 1]
  rfl

/-- The program's result is the rank-4 plane-by-plane gradient magnitude of its argument. -/
theorem result_eq (c : Dev nD) :
    Pipeline.afterTail₀ cfgs (dats m) 0 (V0 m) [hostOps1] c main_v2
      = imageGrad (m ((c.tc : Thread nD τ).loc main_arg0)) := by
  rw [tail_eq, final, entry_stack]
  exact reshape_stackGrad _ _ _

/-- THE RUN, READ: the result array at the plane-by-plane gradient magnitude of the argument, the argument unchanged. -/
theorem run : θ_run defs (onTc (τ := τ) (main (F := Ideal))) ⟨m, fun _ => 0, ρ⟩ fun r => ∀ c : Dev nD,
      r.2.mem ((c.tc : Thread nD τ).loc main_v2) = imageGrad (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.Whole

end
-- ==== Proof.RefValue.lean ====
/-
  What the reference computes, entry by entry.

  The reference pads the whole rank-4 array with a border of zeros around every plane, takes four shifted
  windows of the padded array, and combines them pointwise. Read at an entry, the padded array is the
  bordered plane of the specification (`pad_read`), each window reads it at its offsets, and the result at
  (b, ch, h, w) is the gradient magnitude at (h, w) of plane (b, ch) (`result_eq`).
-/
import proofs.«167682_j46737834115117_1_alg».proof.Proof.Gen.ReferenceIdeal.Read
import proofs.«167682_j46737834115117_1_alg».proof.Proof.GradSpec
import Idealize.ShloMosaic.Lib.KernelVsHost

noncomputable section

namespace Cert.ReferenceIdeal.RefValue

open Idealize.ShloMosaic Idealize.ShloMosaic.ValueIdx Cert.ReferenceIdeal Cert.ReferenceIdeal.Gen
  Cert.ReferenceIdeal.Read Cert.GradMag

/-- The padding value, the integer zero converted, is zero. -/
theorem pad_value (i : S_.Idx) : val_main_call0_v0 (F := Ideal) i = 0 :=
  sitofp_zero (φ := .f32)

/-- Entry (b, ch, r, c) of the padded array: entry (r − 1, c − 1) of plane (b, ch) inside, zero on the border. -/
theorem pad_read (x : (⟨S8x64x256x256, .f32⟩ : BufTy).Contents (Elt Ideal)) (b : Fin 8) (ch : Fin 64) (r c : ℕ)
    (k : S8x64x258x258.Idx) (hk0 : (k 0).val = b.val) (hk1 : (k 1).val = ch.val)
    (hk2 : (k 2).val = r) (hk3 : (k 3).val = c) :
    val_main_v0 (F := Ideal) x k = bordered (fun r' c' => x (ix4 b ch r' c')) r c := by
  unfold val_main_v0 bordered
  by_cases h : (1 ≤ r ∧ r ≤ 256) ∧ (1 ≤ c ∧ c ≤ 256)
  · rw [dif_pos h]
    exact pad_apply_of_inside _ _ _ x _ _ _ k
      (ix4 b ch (⟨r - 1, by omega⟩ : Fin 256) (⟨c - 1, by omega⟩ : Fin 256))
      (fun a => match a with
        | ⟨0, _⟩ => by show (k 0).val = 0 + b.val * (0 + 1); omega
        | ⟨1, _⟩ => by show (k 1).val = 0 + ch.val * (0 + 1); omega
        | ⟨2, _⟩ => by show (k 2).val = 1 + (r - 1) * (0 + 1); omega
        | ⟨3, _⟩ => by show (k 3).val = 1 + (c - 1) * (0 + 1); omega)
  · rw [dif_neg h]
    by_cases hr : 1 ≤ r ∧ r ≤ 256
    · refine (pad_apply_of_not_inside _ _ _ x _ _ _ k 3 (by
        show ¬(1 ≤ (k 3).val ∧ ((k 3).val - 1) % (0 + 1) = 0 ∧ ((k 3).val - 1) / (0 + 1) < 256)
        rw [hk3]; omega)).trans (pad_value _)
    · refine (pad_apply_of_not_inside _ _ _ x _ _ _ k 2 (by
        show ¬(1 ≤ (k 2).val ∧ ((k 2).val - 1) % (0 + 1) = 0 ∧ ((k 2).val - 1) / (0 + 1) < 256)
        rw [hk2]; omega)).trans (pad_value _)

/-- THE REFERENCE AT AN ENTRY: the run's result term is the plane-by-plane gradient magnitude. -/
theorem result_eq (x : (⟨S8x64x256x256, .f32⟩ : BufTy).Contents (Elt Ideal)) :
    val_main_v12 (F := Ideal) x = imageGrad x := by
  funext i
  rw [val_main_v12_apply, val_main_v11_apply, val_main_v9_apply, val_main_v10_apply, val_main_cst_apply,
    val_main_v7_apply, val_main_v8_apply, val_main_v3_apply, val_main_v6_apply,
    val_main_v1_apply, val_main_v2_apply, val_main_v4_apply, val_main_v5_apply]
  rw [pad_read x (i 0) (i 1) (2 + (i 2).val) (1 + (i 3).val) (idx_main_v1 i) rfl rfl rfl rfl,
    pad_read x (i 0) (i 1) (i 2).val (1 + (i 3).val) (idx_main_v2 i) rfl rfl rfl rfl,
    pad_read x (i 0) (i 1) (1 + (i 2).val) (2 + (i 3).val) (idx_main_v4 i) rfl rfl rfl rfl,
    pad_read x (i 0) (i 1) (1 + (i 2).val) (i 3).val (idx_main_v5 i) rfl rfl rfl rfl]
  rfl

end Cert.ReferenceIdeal.RefValue

end
-- ==== Proof.lean ====
/-
  The gradient magnitude of an image batch, computed two ways, is one function.

  Both programs take a rank-4 array x of shape [8, 64, 256, 256] and return, at (b, ch, h, w),

      sqrt( (P(h+2, w+1) − P(h, w+1))² + (P(h+1, w+2) − P(h+1, w))² + ε ),

  where P is plane (b, ch) of x behind a border of zeros one entry wide and ε is the constant whose f32
  word is 0x358637BD (Proof/GradSpec.lean states this once, over the extended reals).

  The reference pads the whole array, slices four shifted windows and combines them on the host
  (Proof/RefValue.lean reads its run at an entry). The kernel program reshapes x to a stack of 512 planes,
  treats sixteen planes per grid point — building the border by concatenations inside the body
  (Proof/KernelBlock.lean reads the body at an entry) — and reshapes back; the 32 blocks tile the stack and
  the two reshapes list the same planes in the same order (Proof/KernelValue.lean). Every operation is
  applied to the same operands in the same order on both sides (the kernel's sqrt and the host's are one
  function of the extended reals, and both border values are the integer zero converted), so no law of
  arithmetic and no finiteness of the input is used: the two results are equal entry by entry for every
  input, and the precondition is never opened.

  The three frames are the generated ones (the reference's is its generated run with the result dropped),
  and the idealization rewrote nothing, so `preserves` has no conjunct.
-/
import proofs.«167682_j46737834115117_1_alg».proof.Defs
import proofs.«167682_j46737834115117_1_alg».proof.Proof.Gen.Kernel
import proofs.«167682_j46737834115117_1_alg».proof.Proof.Gen.Kernel.Skeleton
import proofs.«167682_j46737834115117_1_alg».proof.Proof.Gen.Kernel.Launch
import proofs.«167682_j46737834115117_1_alg».proof.Proof.Gen.Kernel.Points
import proofs.«167682_j46737834115117_1_alg».proof.Proof.Gen.Kernel.Frame
import proofs.«167682_j46737834115117_1_alg».proof.Proof.Gen.KernelIdeal
import proofs.«167682_j46737834115117_1_alg».proof.Proof.Gen.KernelIdeal.Skeleton
import proofs.«167682_j46737834115117_1_alg».proof.Proof.Gen.KernelIdeal.Launch
import proofs.«167682_j46737834115117_1_alg».proof.Proof.Gen.KernelIdeal.Points
import proofs.«167682_j46737834115117_1_alg».proof.Proof.Gen.KernelIdeal.Frame
import proofs.«167682_j46737834115117_1_alg».proof.Proof.Gen.ReferenceIdeal
import proofs.«167682_j46737834115117_1_alg».proof.Proof.Gen.Pre_finite_inputs
import proofs.«167682_j46737834115117_1_alg».proof.Proof.Gen.ReferenceIdeal.Run
import proofs.«167682_j46737834115117_1_alg».proof.Proof.Gen.ReferenceIdeal.Read
import proofs.«167682_j46737834115117_1_alg».proof.Proof.KernelValue
import proofs.«167682_j46737834115117_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel program's result array and the reference's both end at the
    plane-by-plane gradient magnitude of the argument. -/
theorem algebraic : Cert.algebraic_KernelIdeal_ReferenceIdeal := by
  intro m ρ m' ρ' _ hagree
  refine ⟨fun c => Cert.GradMag.imageGrad (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
